-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x128 : Shape := ⟨2, ![128, 128]⟩
abbrev S128x1 : Shape := ⟨2, ![128, 1]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S1048576x128 .f32) (main_arg1 : FVec F S128x128 .f32) (main_arg2 : FVec F S128x1 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S1048576x128 : Shape := ⟨2, ![1048576, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S8192x128 : Shape := ⟨2, ![8192, 128]⟩

abbrev nBuf : Space → Nat
  | .hbm => 7
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128x1_S128 : S128x1.ShapeCasts S128
  bcast_S128_S1x128_1 : S128.BroadcastsInDim S1x128 (![1] : Fin 1 → Fin S1x128.rank)
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x1, .f32⟩
  | .hbm, ⟨3, _⟩ => ⟨S1048576x128, .f32⟩
  | .hbm, ⟨4, _⟩ => ⟨S128, .f32⟩
  | .hbm, ⟨5, _⟩ => ⟨S1x128, .f32⟩
  | .hbm, ⟨6, _⟩ => ⟨S1048576x128, .f32⟩
  | .hbm, ⟨7, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S128x1_S128 : S128x1.ShapeCasts S128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  dot_S1048576x128_S128x128_S1048576x128_1_1_0_0_n_n_wf : DotDims.WF S1048576x128 S128x128 S1048576x128 [1] [1] [0] [0] [] []

variable [Facts₀]

def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Payload.lean ====
/-
  What the kernel body computes from its three loaded blocks, at one entry.

  The body multiplies a block of 8192 input rows by the 128 × 128 matrix it was handed (rows indexed by input feature,
  columns by output feature) into a zero accumulator, and adds the 1 × 128 bias row repeated down the 8192 rows. At the
  ideal values the two narrowings of the product's operands change nothing, so entry `(p, q)` of what it stores is the
  sum over `k` of the input block at `(p, k)` times the matrix at `(k, q)`, plus the bias row at `q`.
-/
import proofs.«151146_j33002528703049_2_alg».proof.Proof.Gen.KernelIdeal.Skeleton
import proofs.«151146_j33002528703049_2_alg».proof.Proof.LibPlainDot
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The stored value at `(p, q)`: a row of the input block against a column of the matrix, plus the bias row's entry. -/
theorem pay_apply (v0 : FVec Ideal S8192x128 .f32) (v2 : FVec Ideal S128x128 .f32) (v6 : FVec Ideal S1x128 .f32)
    (p : Fin 8192) (q : Fin 128) :
    k0_pay1 (F := Ideal) v0 v2 v6 (ix2 p q)
      = (∑ k : Fin 128, v0 (ix2 p k) * v2 (ix2 k q)) + v6 (ix2 (0 : Fin 1) q) := by
  unfold k0_pay1
  rw [addf_apply, shapeCast_self, shapeCast_self, broadcastTo_1b_ab_apply]
  congr 1
  exact Cert.Lib.PlainDot.matmul_zero_apply (M := 8192) (K := 128) (N := 128) none
    (truncf .bf16 v0 bitsLt_bf16_f32) (truncf .bf16 v2 bitsLt_bf16_f32) p q

end Cert.KernelIdeal.Hand

end
-- ==== Proof.Spec.lean ====
/-
  The affine layer as one function of its three arrays.

  For a batch `x` of 1048576 rows of 128 features, a weight matrix `W` whose row `o` holds the coefficients of output
  feature `o`, and a bias column `b`, the layer sends row `r` to the 128 numbers
  `∑ k, x (r, k) · W (o, k) + b (o, 0)`: the inner product of the input row with the weight row, plus that output
  feature's bias. Both programs of this certificate compute exactly this sum of 128 products followed by one
  addition, so the function is stated once here, over the extended reals, and each side is shown to be it.
-/
import Idealize.ShloMosaic.Lib.ValueIdx
import Idealize.ShloMosaic.PureOps.Ideal.Laws

noncomputable section

open scoped BigOperators

namespace Cert.Affine

open Idealize.ShloMosaic Idealize.ShloMosaic.ValueIdx

/-- Entry `(r, o)` of the layer's result: the inner product of input row `r` with weight row `o`, plus the bias of
    output feature `o`. -/
def affine (x : (⟨2, ![1048576, 128]⟩ : Shape).Idx → EReal) (W : (⟨2, ![128, 128]⟩ : Shape).Idx → EReal)
    (b : (⟨2, ![128, 1]⟩ : Shape).Idx → EReal) : (⟨2, ![1048576, 128]⟩ : Shape).Idx → EReal :=
  fun i => (∑ k : Fin 128, x (ix2 (i 0) k) * W (ix2 (i 1) k)) + b (ix2 (i 1) (0 : Fin 1))

/-- The same, at an index given by its two coordinates. -/
theorem affine_apply (x : (⟨2, ![1048576, 128]⟩ : Shape).Idx → EReal) (W : (⟨2, ![128, 128]⟩ : Shape).Idx → EReal)
    (b : (⟨2, ![128, 1]⟩ : Shape).Idx → EReal) (r : Fin 1048576) (o : Fin 128) :
    affine x W b (ix2 r o) = (∑ k : Fin 128, x (ix2 r k) * W (ix2 o k)) + b (ix2 o (0 : Fin 1)) := rfl

end Cert.Affine

end
-- ==== Proof.Point.lean ====
/-
  One grid point of the kernel against the affine layer.

  Grid point `n` is handed rows `8192 n … 8192 n + 8191` of the input, the whole transposed weight and the whole
  bias row. If the three loaded blocks read their arrays that way, then what the body stores at block entry `(p, q)`
  is the layer's entry at row `8192 n + p`, output feature `q`: the transposed weight at `(k, q)` is the weight at
  `(q, k)`, so the body's sum over `k` is the inner product of the input row with weight row `q`, and the bias row
  at `q` is the bias column at `(q, 0)`.
-/
import proofs.«151146_j33002528703049_2_alg».proof.Proof.Payload
import proofs.«151146_j33002528703049_2_alg».proof.Proof.Spec

noncomputable section

open scoped BigOperators

namespace Cert.KernelIdeal.Hand

open Cert.KernelIdeal Cert.KernelIdeal.Gen Idealize.ShloMosaic Idealize.ShloMosaic.ValueIdx

/-- What point `n` stores at block index `y` is the layer at the array index `i` that `y` lands on. -/
theorem point_eq (X : S1048576x128.Idx → EReal) (W : S128x128.Idx → EReal) (B : S128x1.Idx → EReal) (n : Nat)
    (x0 : FVec Ideal S8192x128 .f32) (x1 : FVec Ideal S128x128 .f32) (x2 : FVec Ideal S1x128 .f32)
    (h0 : ∀ (p : Fin 8192) (k : Fin 128) (r : Fin 1048576), r.val = n * 8192 + p.val → x0 (ix2 p k) = X (ix2 r k))
    (h1 : ∀ k o : Fin 128, x1 (ix2 k o) = W (ix2 o k))
    (h2 : ∀ q : Fin 128, x2 (ix2 (0 : Fin 1) q) = B (ix2 q (0 : Fin 1)))
    (y : S8192x128.Idx) (i : S1048576x128.Idx)
    (hi0 : (i 0).val = n * 8192 + (y 0).val) (hi1 : (i 1).val = (y 1).val) :
    k0_pay1 (F := Ideal) x0 x1 x2 y = Cert.Affine.affine X W B i := by
  obtain ⟨p, q, rfl⟩ : ∃ (p : Fin 8192) (q : Fin 128), y = ix2 p q := ⟨y 0, y 1, eq_ix2 y⟩
  obtain ⟨r, o, rfl⟩ : ∃ (r : Fin 1048576) (o : Fin 128), i = ix2 r o := ⟨i 0, i 1, eq_ix2 i⟩
  obtain rfl : o = q := Fin.ext hi1
  rw [pay_apply, Cert.Affine.affine_apply, h2]
  congr 1
  exact Finset.sum_congr rfl fun k _ => by rw [h0 p k r hi0, h1]

end Cert.KernelIdeal.Hand

end
-- ==== Proof.HostPrefix.lean ====
/-
  The two arrays the program prepares before the kernel is launched, read at an index.

  The matrix handed to the kernel is the weight transposed: its entry `(k, o)` is the weight at `(o, k)`. The bias row
  handed to the kernel is the bias column flattened and laid out as one row: its entry `(0, q)` is the column at
  `(q, 0)`.
-/
import proofs.«151146_j33002528703049_2_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- When the kernel is launched its second operand holds the weight transposed. -/
theorem V_wt (c : Dev nD) :
    (V m c main_v0 : S128x128.Idx → EReal)
      = transpose S128x128 [1, 0] (m ((c : Thread nD τ).loc main_arg1)) transposes_S128x128_S128x128_1_0 := by
  dsimp only [Gen.V, Gen.hostOps0]
  after_results <;> rfl

/-- … and its third operand the bias column flattened and laid out as a row. -/
theorem V_brow (c : Dev nD) :
    (V m c main_v2 : S1x128.Idx → EReal)
      = broadcastInDim S1x128 ![1] bcast_S128_S1x128_1
          (shapeCast S128 (m ((c : Thread nD τ).loc main_arg2)) shapeCasts_S128x1_S128) := by
  dsimp only [Gen.V, Gen.hostOps0]
  after_results <;> rfl

/-- Entry `(k, o)` of the transposed weight is the weight at `(o, k)`. -/
theorem V_wt_apply (c : Dev nD) (k o : Fin 128) :
    (V m c main_v0 : S128x128.Idx → EReal) (ix2 k o)
      = (m ((c : Thread nD τ).loc main_arg1) : S128x128.Idx → EReal) (ix2 o k) := by
  rw [V_wt]
  exact transpose_ix2_apply _ _ k o

/-- Entry `(0, q)` of the bias row is the bias column at `(q, 0)`. -/
theorem V_brow_apply (c : Dev nD) (q : Fin 128) :
    (V m c main_v2 : S1x128.Idx → EReal) (ix2 (0 : Fin 1) q)
      = (m ((c : Thread nD τ).loc main_arg2) : S128x1.Idx → EReal) (ix2 q (0 : Fin 1)) := by
  rw [V_brow]
  refine (broadcastInDim_apply _ bcast_S128_S1x128_1 _ (ix2 (0 : Fin 1) q) (ix1 q) (fun a => ?_)).trans ?_
  · match a with
    | ⟨0, _⟩ => show q.val = if (128 : Nat) = 1 then 0 else q.val; rw [if_neg (by decide)]
  · refine shapeCast_apply _ shapeCasts_S128x1_S128 (ix1 q) (ix2 q (0 : Fin 1)) ?_
    rewrite [Shape.rowMajor_val_two, Shape.rowMajor_val_one]
    show q.val * 1 + 0 = q.val
    omega

end Cert.KernelIdeal.Hand

end
-- ==== Proof.Blocks.lean ====
/-
  From the kernel's 128 blocks to its whole result array.

  Grid point `t` reads rows `8192 t … 8192 t + 8191` of the input, all of the transposed weight and all of the bias
  row, and writes back rows `8192 t … 8192 t + 8191` of the result. What it writes back is that block of the affine
  layer of the three argument arrays (one point against the layer, with the blocks read where the index maps put
  them). Row `r` of the result lies in the block of point `r / 8192`, so the 128 blocks cover the array and it ends
  holding the layer.
-/
import proofs.«151146_j33002528703049_2_alg».proof.Proof.Gen.KernelIdeal.Value
import proofs.«151146_j33002528703049_2_alg».proof.Proof.Point
import proofs.«151146_j33002528703049_2_alg».proof.Proof.HostPrefix

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps, decided over the 128 grid points: the input and the result move down one block of rows per point,
    the weight and the bias row stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer of the three argument arrays as launched on core `c`. -/
abbrev layer (c : Dev nD) : S1048576x128.Idx → EReal :=
  Cert.Affine.affine (m ((c : Thread nD τ).loc main_arg0)) (m ((c : Thread nD τ).loc main_arg1))
    (m ((c : Thread nD τ).loc main_arg2))

/-- The input block of point `t` at `(p, k)` is the input at row `8192 t + p`, feature `k`. -/
theorem iblk0_apply (c : Dev nD) (t : Fin cfg0.N) (p : Fin 8192) (k : Fin 128) (r : Fin 1048576)
    (hr : r.val = t.val * 8192 + p.val) :
    (iblk m c 0 t : S8192x128.Idx → EReal) (ix2 p k)
      = (m ((c : Thread nD τ).loc main_arg0) : S1048576x128.Idx → EReal) (ix2 r k) := by
  obtain ⟨e0, e1, -⟩ := idx_facts t
  unfold iblk
  rw [View.read_apply]
  show V m c main_arg0 _ = _
  rw [V_main_arg0]
  refine congrArg (m ((c : Thread nD τ).loc main_arg0) : S1048576x128.Idx → EReal) ?_
  funext a
  apply Fin.ext
  match a with
  | ⟨0, _⟩ => show win0_0.index t (0 : Fin 2) * 8192 + 1 * p.val = r.val; omega
  | ⟨1, _⟩ => show win0_0.index t (1 : Fin 2) * 128 + 1 * k.val = k.val; omega

/-- The matrix block of any point at `(k, o)` is the weight at `(o, k)`. -/
theorem iblk1_apply (c : Dev nD) (t : Fin cfg0.N) (k o : Fin 128) :
    (iblk m c 1 t : S128x128.Idx → EReal) (ix2 k o)
      = (m ((c : Thread nD τ).loc main_arg1) : S128x128.Idx → EReal) (ix2 o k) := by
  obtain ⟨-, -, e2, e3, -⟩ := idx_facts t
  unfold iblk
  rw [View.read_apply]
  show V m c main_v0 _ = _
  refine Eq.trans (congrArg (V m c main_v0 : S128x128.Idx → EReal) ?_) (V_wt_apply m c k o)
  funext a
  apply Fin.ext
  match a with
  | ⟨0, _⟩ => show win0_1.index t (0 : Fin 2) * 128 + 1 * k.val = k.val; omega
  | ⟨1, _⟩ => show win0_1.index t (1 : Fin 2) * 128 + 1 * o.val = o.val; omega

/-- The bias-row block of any point at `(0, q)` is the bias column at `(q, 0)`. -/
theorem iblk2_apply (c : Dev nD) (t : Fin cfg0.N) (q : Fin 128) :
    (iblk m c 2 t : S1x128.Idx → EReal) (ix2 (0 : Fin 1) q)
      = (m ((c : Thread nD τ).loc main_arg2) : S128x1.Idx → EReal) (ix2 q (0 : Fin 1)) := by
  obtain ⟨-, -, -, -, e4, e5, -⟩ := idx_facts t
  unfold iblk
  rw [View.read_apply]
  show V m c main_v2 _ = _
  refine Eq.trans (congrArg (V m c main_v2 : S1x128.Idx → EReal) ?_) (V_brow_apply m c q)
  funext a
  apply Fin.ext
  match a with
  | ⟨0, _⟩ => show win0_2.index t (0 : Fin 2) * 1 + 1 * 0 = 0; omega
  | ⟨1, _⟩ => show win0_2.index t (1 : Fin 2) * 128 + 1 * q.val = q.val; omega

/-- What point `t` writes back is block `t` of the layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero hz]
  simp only [View.ld_unit_zero (S := S8192x128) hz, View.ld_unit_zero (S := S128x128) hz,
    View.ld_unit_zero (S := S1x128) hz]
  obtain ⟨-, -, -, -, -, -, e6, e7⟩ := idx_facts t
  funext j
  show k0_pay1 (F := Ideal) (iblk m c 0 t) (iblk m c 1 t) (iblk m c 2 t) j
    = layer m c (((cfg0.win 3).blk t).view.emb j)
  refine point_eq _ _ _ t.val _ _ _ (fun p k r hr => iblk0_apply m c t p k r hr) (fun k o => iblk1_apply m c t k o)
    (fun q => iblk2_apply m c t q) j _ ?_ ?_
  · show win0_3.index t (0 : Fin 2) * 8192 + 1 * (j 0).val = t.val * 8192 + (j 0).val; omega
  · show win0_3.index t (1 : Fin 2) * 128 + 1 * (j 1).val = (j 1).val; omega

/-- An index of the result is in point `t`'s block iff each coordinate is in the block's range on its axis. -/
theorem mem_blk (t : Fin cfg0.N) (i : S1048576x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v3).slice (win0_3.rect t)).set ↔ _
  rw [View.set_slice_whole, Rect.mem_set_unit]
  exact Iff.rfl

/-- Every index of the result is in the block of the point its row falls to. -/
theorem cover (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  obtain ⟨t, ht⟩ : ∃ t : Fin cfg0.N, t.val = (i 0).val / 8192 :=
    ⟨⟨(i 0).val / 8192, Nat.lt_of_lt_of_eq (by omega : (i 0).val / 8192 < 128) N_0.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 128 ≤ (i 1).val ∧ (i 1).val < win0_3.index t (1 : Fin 2) * 128 + 128
    omega

/-- The result array after the run is the layer of the argument arrays. -/
theorem final (c : Dev nD) : (dats m 0 c).arrAt 3 cfg0.N = layer m c :=
  (dats m 0 c).arrAt_eq_of_cover 3 (layer m c) (fun t _ => flushed_eq m c t) cover

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v3) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefAffine.lean ====
/-
  The reference program computes the affine layer.

  Its five operations are a contraction of the input's feature axis against the weight's feature axis, the bias column
  flattened to a vector, that vector laid out as a row, the row repeated down every batch row, and one addition. Read
  at an entry `(r, o)`: the contraction is the sum over `k` of `x (r, k) · W (o, k)`; the flattened, re-laid and repeated
  bias reads the column at `(o, 0)`. That is the layer's entry.
-/
import proofs.«151146_j33002528703049_2_alg».proof.Proof.Gen.ReferenceIdeal.Read
import proofs.«151146_j33002528703049_2_alg».proof.Proof.Spec

noncomputable section

open scoped BigOperators

namespace Cert.ReferenceIdeal.RefValue

open Cert.ReferenceIdeal Cert.ReferenceIdeal.Read Idealize.ShloMosaic Idealize.ShloMosaic.ValueIdx

/-- The contraction reads the input at row `r`, feature `k`. -/
theorem lidx_eq (r : Fin 1048576) (o : Fin 128) (k : Fin 128) : lidx_main_v0 (ix2 r o) k = ix2 r k :=
  funext fun a => Fin.ext (by match a with | ⟨0, _⟩ => rfl | ⟨1, _⟩ => rfl)

/-- The contraction reads the weight at row `o`, feature `k`. -/
theorem ridx_eq (r : Fin 1048576) (o : Fin 128) (k : Fin 128) : ridx_main_v0 (ix2 r o) k = ix2 o k :=
  funext fun a => Fin.ext (by match a with | ⟨0, _⟩ => rfl | ⟨1, _⟩ => rfl)

/-- The repeated bias row at `(r, o)` reads the bias column at `(o, 0)`. -/
theorem bidx_eq (r : Fin 1048576) (o : Fin 128) :
    idx_main_v1 (idx_main_v2 (idx_main_v3 (ix2 r o))) = ix2 o (0 : Fin 1) :=
  funext fun a => Fin.ext (by
    match a with
    | ⟨0, _⟩ => show o.val / 1 = o.val; omega
    | ⟨1, _⟩ => rfl)

/-- The reference's result is the affine layer of its three arguments. -/
theorem ref_eq (x0 : (⟨S1048576x128, .f32⟩ : BufTy).Contents (Elt Ideal)) (x1 : (⟨S128x128, .f32⟩ : BufTy).Contents (Elt Ideal))
    (x2 : (⟨S128x1, .f32⟩ : BufTy).Contents (Elt Ideal)) :
    val_main_v4 (F := Ideal) x0 x1 x2 = Cert.Affine.affine x0 x1 x2 := by
  funext i
  obtain ⟨r, o, rfl⟩ : ∃ (r : Fin 1048576) (o : Fin 128), i = ix2 r o := ⟨i 0, i 1, eq_ix2 i⟩
  rw [val_main_v4_apply, val_main_v0_apply, val_main_v3_apply, val_main_v2_apply, val_main_v1_apply,
    Cert.Affine.affine_apply, bidx_eq]
  simp only [lidx_eq, ridx_eq]
  rfl

end Cert.ReferenceIdeal.RefValue

end
-- ==== Proof.lean ====
/-
  The kernel computes the affine layer `x ↦ x Wᵀ + b` over 1048576 rows of 128 features, and so does the reference.

  The kernel's program transposes the 128 × 128 weight and lays the bias column out as a 1 × 128 row, then runs 128 grid
  points; point `t` multiplies rows `8192 t … 8192 t + 8191` of the input by the transposed weight into a zero
  accumulator, adds the bias row to every row, and writes those 8192 rows of the result. The reference contracts the
  input's feature axis against the weight's feature axis directly and adds the bias row repeated down the batch.

  Over the extended reals both results have, at row `r` and output feature `o`, the value
  `∑ k, x (r, k) · W (o, k) + b (o, 0)` (Proof/Spec.lean): the transposed weight at `(k, o)` is the weight at `(o, k)`,
  a sum into a zero accumulator is the sum, and the narrowing of the product's operands is the identity at the ideal
  values. The same products are added in the same order on both sides, so no law of arithmetic is needed beyond
  `0 + s = s` inside the library's reading of the product, and the inputs' finiteness is not used.

  Proof/RefAffine.lean reads the reference's five operations at an entry; Proof/Payload.lean the kernel body's stored
  value at an entry; Proof/HostPrefix.lean the two arrays prepared before the launch; Proof/Point.lean one grid point
  against the layer; Proof/Blocks.lean the blocks the points write back, which cover the result array. The kernel
  reads its program exactly as printed at the ideal values, so there is nothing to state for the idealization.
-/
import proofs.«151146_j33002528703049_2_alg».proof.Defs
import proofs.«151146_j33002528703049_2_alg».proof.Proof.Gen.Kernel
import proofs.«151146_j33002528703049_2_alg».proof.Proof.Gen.Kernel.Frame
import proofs.«151146_j33002528703049_2_alg».proof.Proof.Gen.KernelIdeal
import proofs.«151146_j33002528703049_2_alg».proof.Proof.Gen.KernelIdeal.Frame
import proofs.«151146_j33002528703049_2_alg».proof.Proof.Gen.KernelIdeal.Value
import proofs.«151146_j33002528703049_2_alg».proof.Proof.Gen.ReferenceIdeal
import proofs.«151146_j33002528703049_2_alg».proof.Proof.Gen.ReferenceIdeal.Run
import proofs.«151146_j33002528703049_2_alg».proof.Proof.Gen.ReferenceIdeal.Read
import proofs.«151146_j33002528703049_2_alg».proof.Proof.Gen.Pre_finite_inputs
import proofs.«151146_j33002528703049_2_alg».proof.Proof.Blocks
import proofs.«151146_j33002528703049_2_alg».proof.Proof.RefAffine
import Idealize.ShloMosaic.Adequacy
import Idealize.ShloMosaic.Init

noncomputable section

namespace Cert.Proof

open Idealize.ShloMosaic Idealize.SL.Sem

/-- The kernel as printed runs to the end and leaves its three arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs to the end and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From arguments that agree, the kernel's result array and the reference's both end at the affine layer of the
    arguments: row `r`, feature `o` holds `∑ k, x (r, k) · W (o, k) + b (o, 0)`. -/
theorem algebraic : Cert.algebraic_KernelIdeal_ReferenceIdeal := by
  intro m ρ m' ρ' _ hagree
  refine ⟨fun c => Cert.KernelIdeal.Hand.layer m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
